-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x196x768 : Shape := ⟨3, ![128, 196, 768]⟩
abbrev S768x768 : Shape := ⟨2, ![768, 768]⟩
abbrev S768 : Shape := ⟨1, ![768]⟩
abbrev S197x768 : Shape := ⟨2, ![197, 768]⟩
abbrev S1x393x768 : Shape := ⟨3, ![1, 393, 768]⟩
abbrev S_ : Shape := ⟨0, ![]⟩

class Facts : Prop where
  bcast_S_S128x196x768 : S_.BroadcastsInDim S128x196x768 (![] : Fin 0 → Fin S128x196x768.rank)
  reducesTo_S128x196x768_S_d0_1_2 : S128x196x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S197x768 : S_.BroadcastsInDim S197x768 (![] : Fin 0 → Fin S197x768.rank)
  reducesTo_S197x768_S_d0_1 : S197x768.ReducesTo [0, 1] S_
  bcast_S_S1x393x768 : S_.BroadcastsInDim S1x393x768 (![] : Fin 0 → Fin S1x393x768.rank)
  reducesTo_S1x393x768_S_d0_1_2 : S1x393x768.ReducesTo [0, 1, 2] S_

variable [Facts]

def fn_part1 {F : FTy → Type} [FloatOps F] (main_arg4 : FVec F S1x393x768 .f32) (main_v13 : IVec S_ 1) (main_v16 : IVec S197x768 1) : IVec S_ 1 :=
  let main_c_5 : IVec S_ 1 := constantI S_ 1 1#1
  let main_v17 : IVec S_ 1 := (fun x v => Host.reduce IntOp.andi x v reducesTo_S197x768_S_d0_1 h_S_) main_v16 main_c_5
  let main_v18 : IVec S_ 1 := andi main_v13 main_v17
  let main_v19 : FVec F S1x393x768 .f32 := Host.absf main_arg4
  let main_cst_6 : FVec F S_ .f32 := constant S_ .f32 0x7F800000#32
  let main_v20 : FVec F S1x393x768 .f32 := broadcastInDim S1x393x768 ![] bcast_S_S1x393x768 main_cst_6
  let main_v21 : IVec S1x393x768 1 := cmpf .olt main_v19 main_v20
  let main_c_7 : IVec S_ 1 := constantI S_ 1 1#1
  let main_v22 : IVec S_ 1 := (fun x v => Host.reduce IntOp.andi x v reducesTo_S1x393x768_S_d0_1_2 h_S_) main_v21 main_c_7
  let main_v23 : IVec S_ 1 := andi main_v18 main_v22
  main_v23

def fn {F : FTy → Type} [FloatOps F] (main_arg0 : FVec F S128x196x768 .f32) (main_arg1 : FVec F S768x768 .f32) (main_arg2 : FVec F S768 .f32) (main_arg3 : FVec F S197x768 .f32) (main_arg4 : FVec F S1x393x768 .f32) : IVec S_ 1 :=
  let main_v0 : FVec F S128x196x768 .f32 := Host.absf main_arg0
  let main_cst : FVec F S_ .f32 := constant S_ .f32 0x7F800000#32
  let main_v1 : FVec F S128x196x768 .f32 := broadcastInDim S128x196x768 ![] bcast_S_S128x196x768 main_cst
  let main_v2 : IVec S128x196x768 1 := cmpf .olt main_v0 main_v1
  let main_c : IVec S_ 1 := constantI S_ 1 1#1
  let main_v3 : IVec S_ 1 := (fun x v => Host.reduce IntOp.andi x v reducesTo_S128x196x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S197x768 .f32 := Host.absf main_arg3
  let main_cst_4 : FVec F S_ .f32 := constant S_ .f32 0x7F800000#32
  let main_v15 : FVec F S197x768 .f32 := broadcastInDim S197x768 ![] bcast_S_S197x768 main_cst_4
  let main_v16 : IVec S197x768 1 := cmpf .olt main_v14 main_v15
  fn_part1 (F := F) main_arg4 main_v13 main_v16
-- ==== Kernel.lean ====
abbrev S128x196x768 : Shape := ⟨3, ![128, 196, 768]⟩
abbrev S768x768 : Shape := ⟨2, ![768, 768]⟩
abbrev S768 : Shape := ⟨1, ![768]⟩
abbrev S197x768 : Shape := ⟨2, ![197, 768]⟩
abbrev S1x393x768 : Shape := ⟨3, ![1, 393, 768]⟩
abbrev S128x393x768 : Shape := ⟨3, ![128, 393, 768]⟩
abbrev S4x196x768 : Shape := ⟨3, ![4, 196, 768]⟩
abbrev S4x393x768 : Shape := ⟨3, ![4, 393, 768]⟩
abbrev S784x768 : Shape := ⟨2, ![784, 768]⟩
abbrev S1x768 : Shape := ⟨2, ![1, 768]⟩
abbrev S196x768 : Shape := ⟨2, ![196, 768]⟩
abbrev S1x196x768 : Shape := ⟨3, ![1, 196, 768]⟩
abbrev S1x1x768 : Shape := ⟨3, ![1, 1, 768]⟩
abbrev S4x1x768 : Shape := ⟨3, ![4, 1, 768]⟩
abbrev S4x196x1x768 : Shape := ⟨4, ![4, 196, 1, 768]⟩
abbrev S4x196x2x768 : Shape := ⟨4, ![4, 196, 2, 768]⟩
abbrev S4x392x768 : Shape := ⟨3, ![4, 392, 768]⟩

abbrev nBuf : Space → Nat
  | .hbm => 6
  | .vmem => 8
  | .smem => 0
  | _ => 0

abbrev bufTy : (tb : Table) → Fin (tcTables nBuf tb) → BufTy
  | .hbm, ⟨0, _⟩ => ⟨S128x196x768, .f32⟩
  | .hbm, ⟨1, _⟩ => ⟨S768x768, .f32⟩
  | .hbm, ⟨2, _⟩ => ⟨S768, .f32⟩
  | .hbm, ⟨3, _⟩ => ⟨S197x768, .f32⟩
  | .hbm, ⟨4, _⟩ => ⟨S1x393x768, .f32⟩
  | .hbm, ⟨5, _⟩ => ⟨S128x393x768, .f32⟩
  | .local _ .vmem, ⟨0, _⟩ => ⟨S4x196x768, .f32⟩
  | .local _ .vmem, ⟨1, _⟩ => ⟨S4x196x768, .f32⟩
  | .local _ .vmem, ⟨2, _⟩ => ⟨S768x768, .f32⟩
  | .local _ .vmem, ⟨3, _⟩ => ⟨S768, .f32⟩
  | .local _ .vmem, ⟨4, _⟩ => ⟨S197x768, .f32⟩
  | .local _ .vmem, ⟨5, _⟩ => ⟨S1x393x768, .f32⟩
  | .local _ .vmem, ⟨6, _⟩ => ⟨S4x393x768, .f32⟩
  | .local _ .vmem, ⟨7, _⟩ => ⟨S4x393x768, .f32⟩
  | _, _ => ⟨S128x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S197x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x393x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x393x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S4x196x768_S4x196x768_0_0_0 : ∀ a, (![0, 0, 0] : Fin 3 → Nat) a + S4x196x768.size a ≤ S4x196x768.size a
  h_S4x196x768 : 0 < S4x196x768.numel
  shapeCasts_S4x196x768_S784x768 : S4x196x768.ShapeCasts S784x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S784x768 : S1x768.Broadcasts S784x768
  shapeCasts_S784x768_S4x196x768 : S784x768.ShapeCasts S4x196x768
  inb_S197x768_S196x768_1_0 : ∀ a, (![1, 0] : Fin 2 → Nat) a + S196x768.size a ≤ S197x768.size a
  h_S196x768 : 0 < S196x768.numel
  shapeCasts_S196x768_S1x196x768 : S196x768.ShapeCasts S1x196x768
  shapeCasts_S1x196x768_S1x196x768 : S1x196x768.ShapeCasts S1x196x768
  broadcasts_S1x196x768_S4x196x768 : S1x196x768.Broadcasts S4x196x768
  inb_S197x768_S1x768_0_0 : ∀ a, (![0, 0] : Fin 2 → Nat) a + S1x768.size a ≤ S197x768.size a
  h_S1x768 : 0 < S1x768.numel
  shapeCasts_S1x768_S1x1x768 : S1x768.ShapeCasts S1x1x768
  shapeCasts_S1x1x768_S1x1x768 : S1x1x768.ShapeCasts S1x1x768
  broadcasts_S1x1x768_S4x1x768 : S1x1x768.Broadcasts S4x1x768
  shapeCasts_S4x196x768_S4x196x1x768 : S4x196x768.ShapeCasts S4x196x1x768
  concatenates_S4x196x1x768_S4x196x1x768_S4x196x2x768_d2 : Shape.Concatenates [S4x196x1x768, S4x196x1x768] S4x196x2x768 2
  shapeCasts_S4x196x2x768_S4x392x768 : S4x196x2x768.ShapeCasts S4x392x768
  concatenates_S4x1x768_S4x392x768_S4x393x768_d1 : Shape.Concatenates [S4x1x768, S4x392x768] S4x393x768 1
  inb_S1x393x768_S1x393x768_0_0_0 : ∀ a, (![0, 0, 0] : Fin 3 → Nat) a + S1x393x768.size a ≤ S1x393x768.size a
  h_S1x393x768 : 0 < S1x393x768.numel
  broadcasts_S1x393x768_S4x393x768 : S1x393x768.Broadcasts S4x393x768
  inb_S4x393x768_S4x393x768_0_0_0 : ∀ a, (![0, 0, 0] : Fin 3 → Nat) a + S4x393x768.size a ≤ S4x393x768.size a
  h_S4x393x768 : 0 < S4x393x768.numel
  dot_S784x768_S768x768_S784x768_1_0_0_1_n_n_wf : DotDims.WF S784x768 S768x768 S784x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x196x768.size a ≤ S128x196x768.size a
  hwx0_0 : ∀ i : grid0.Coords, EltTy.bits .f32 = 32 ∨ (Rect.block (s := S128x196x768) S4x196x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S197x768.size a ≤ S197x768.size a
  hwx0_3 : ∀ i : grid0.Coords, EltTy.bits .f32 = 32 ∨ (Rect.block (s := S197x768) S197x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x393x768.size a ≤ S1x393x768.size a
  hwx0_4 : ∀ i : grid0.Coords, EltTy.bits .f32 = 32 ∨ (Rect.block (s := S1x393x768) S1x393x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x393x768.size a ≤ S128x393x768.size a
  hwx0_5 : ∀ i : grid0.Coords, EltTy.bits .f32 = 32 ∨ (Rect.block (s := S128x393x768) S4x393x768.size (cc0_transform_5 i) (hinb0_5 i)).WholeWords (EltTy.packing .f32)

variable [Facts₀]

def dot_S784x768_S768x768_S784x768_1_0_0_1_n_n : DotDims S784x768 S768x768 S784x768 where
  lhsContracting := [1]
  rhsContracting := [0]
  lhsNonContracting := [0]
  rhsNonContracting := [1]
  lhsBatch := []
  rhsBatch := []
  wf := dot_S784x768_S768x768_S784x768_1_0_0_1_n_n_wf

abbrev win0_0 : Pipeline.Window sig grid0 :=
  Pipeline.Window.ofSpec (Memref.whole main_arg0) S4x196x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S197x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x393x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4x393x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x196x768 : Shape := ⟨3, ![128, 196, 768]⟩
abbrev S768x768 : Shape := ⟨2, ![768, 768]⟩
abbrev S768 : Shape := ⟨1, ![768]⟩
abbrev S197x768 : Shape := ⟨2, ![197, 768]⟩
abbrev S1x393x768 : Shape := ⟨3, ![1, 393, 768]⟩
abbrev S1x1x768 : Shape := ⟨3, ![1, 1, 768]⟩
abbrev S_ : Shape := ⟨0, ![]⟩
abbrev S1 : Shape := ⟨1, ![1]⟩
abbrev S196 : Shape := ⟨1, ![196]⟩
abbrev S197 : Shape := ⟨1, ![197]⟩
abbrev S197x1 : Shape := ⟨2, ![197, 1]⟩
abbrev S196x768 : Shape := ⟨2, ![196, 768]⟩
abbrev S128x196x1x768 : Shape := ⟨4, ![128, 196, 1, 768]⟩
abbrev S128x196x2x768 : Shape := ⟨4, ![128, 196, 2, 768]⟩
abbrev S128x392x768 : Shape := ⟨3, ![128, 392, 768]⟩
abbrev S1x768 : Shape := ⟨2, ![1, 768]⟩
abbrev S128x1x768 : Shape := ⟨3, ![128, 1, 768]⟩
abbrev S128x393x768 : Shape := ⟨3, ![128, 393, 768]⟩

abbrev nBuf : Space → Nat
  | .hbm => 38
  | .vmem => 0
  | .smem => 0
  | _ => 0

abbrev bufTy : (tb : Table) → Fin (tcTables nBuf tb) → BufTy
  | .hbm, ⟨0, _⟩ => ⟨S128x196x768, .f32⟩
  | .hbm, ⟨1, _⟩ => ⟨S768x768, .f32⟩
  | .hbm, ⟨2, _⟩ => ⟨S768, .f32⟩
  | .hbm, ⟨3, _⟩ => ⟨S197x768, .f32⟩
  | .hbm, ⟨4, _⟩ => ⟨S1x393x768, .f32⟩
  | .hbm, ⟨5, _⟩ => ⟨S128x196x768, .f32⟩
  | .hbm, ⟨6, _⟩ => ⟨S1x1x768, .f32⟩
  | .hbm, ⟨7, _⟩ => ⟨S128x196x768, .f32⟩
  | .hbm, ⟨8, _⟩ => ⟨S128x196x768, .f32⟩
  | .hbm, ⟨9, _⟩ => ⟨S_, .i32⟩
  | .hbm, ⟨10, _⟩ => ⟨S1, .i32⟩
  | .hbm, ⟨11, _⟩ => ⟨S196, .i32⟩
  | .hbm, ⟨12, _⟩ => ⟨S_, .i32⟩
  | .hbm, ⟨13, _⟩ => ⟨S196, .i32⟩
  | .hbm, ⟨14, _⟩ => ⟨S196, .i32⟩
  | .hbm, ⟨15, _⟩ => ⟨S197, .i32⟩
  | .hbm, ⟨16, _⟩ => ⟨S_, .i32⟩
  | .hbm, ⟨17, _⟩ => ⟨S197, .i32⟩
  | .hbm, ⟨18, _⟩ => ⟨S197, .i1⟩
  | .hbm, ⟨19, _⟩ => ⟨S_, .i32⟩
  | .hbm, ⟨20, _⟩ => ⟨S197, .i32⟩
  | .hbm, ⟨21, _⟩ => ⟨S197, .i32⟩
  | .hbm, ⟨22, _⟩ => ⟨S197, .i32⟩
  | .hbm, ⟨23, _⟩ => ⟨S197x1, .i32⟩
  | .hbm, ⟨24, _⟩ => ⟨S197x768, .f32⟩
  | .hbm, ⟨25, _⟩ => ⟨S196x768, .f32⟩
  | .hbm, ⟨26, _⟩ => ⟨S128x196x768, .f32⟩
  | .hbm, ⟨27, _⟩ => ⟨S128x196x1x768, .f32⟩
  | .hbm, ⟨28, _⟩ => ⟨S128x196x1x768, .f32⟩
  | .hbm, ⟨29, _⟩ => ⟨S128x196x2x768, .f32⟩
  | .hbm, ⟨30, _⟩ => ⟨S128x392x768, .f32⟩
  | .hbm, ⟨31, _⟩ => ⟨S1x768, .f32⟩
  | .hbm, ⟨32, _⟩ => ⟨S768, .f32⟩
  | .hbm, ⟨33, _⟩ => ⟨S1x1x768, .f32⟩
  | .hbm, ⟨34, _⟩ => ⟨S128x1x768, .f32⟩
  | .hbm, ⟨35, _⟩ => ⟨S128x393x768, .f32⟩
  | .hbm, ⟨36, _⟩ => ⟨S128x393x768, .f32⟩
  | .hbm, ⟨37, _⟩ => ⟨S128x393x768, .f32⟩
  | _, _ => ⟨S128x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S128x196x768_0_1_2 : S1x1x768.BroadcastsInDim S128x196x768 (![0, 1, 2] : Fin 3 → Fin S128x196x768.rank)
  bcast_S_S1 : S_.BroadcastsInDim S1 (![] : Fin 0 → Fin S1.rank)
  bcast_S_S196 : S_.BroadcastsInDim S196 (![] : Fin 0 → Fin S196.rank)
  concatenates_S1_S196_S197_d0 : Shape.Concatenates [S1, S196] S197 0
  bcast_S_S197 : S_.BroadcastsInDim S197 (![] : Fin 0 → Fin S197.rank)
  bcast_S197_S197x1_0 : S197.BroadcastsInDim S197x1 (![0] : Fin 1 → Fin S197x1.rank)
  slices_S197x768_S196x768_1_0 : S197x768.Slices ![1, 0] S196x768
  bcast_S196x768_S128x196x768_1_2 : S196x768.BroadcastsInDim S128x196x768 (![1, 2] : Fin 2 → Fin S128x196x768.rank)
  bcast_S128x196x768_S128x196x1x768_0_1_3 : S128x196x768.BroadcastsInDim S128x196x1x768 (![0, 1, 3] : Fin 3 → Fin S128x196x1x768.rank)
  concatenates_S128x196x1x768_S128x196x1x768_S128x196x2x768_d2 : Shape.Concatenates [S128x196x1x768, S128x196x1x768] S128x196x2x768 2
  shapeCasts_S128x196x2x768_S128x392x768 : S128x196x2x768.ShapeCasts S128x392x768
  slices_S197x768_S1x768_0_0 : S197x768.Slices ![0, 0] S1x768
  shapeCasts_S1x768_S768 : S1x768.ShapeCasts S768
  bcast_S1x1x768_S128x1x768_0_1_2 : S1x1x768.BroadcastsInDim S128x1x768 (![0, 1, 2] : Fin 3 → Fin S128x1x768.rank)
  concatenates_S128x1x768_S128x392x768_S128x393x768_d1 : Shape.Concatenates [S128x1x768, S128x392x768] S128x393x768 1
  bcast_S1x393x768_S128x393x768_0_1_2 : S1x393x768.BroadcastsInDim S128x393x768 (![0, 1, 2] : Fin 3 → Fin S128x393x768.rank)
  dot_S128x196x768_S768x768_S128x196x768_2_0_01_1_n_n_wf : DotDims.WF S128x196x768 S768x768 S128x196x768 [2] [0] [0, 1] [1] [] []
  gather_S197x768_S197x1_S197x768_1_0_n_n_0_1_1768_wf : GatherDims.WF S197x768 S197x1 S197x768 [1] [0] [] [0] [] 1 ![1, 768]

variable [Facts₀]

def dot_S128x196x768_S768x768_S128x196x768_2_0_01_1_n_n : DotDims S128x196x768 S768x768 S128x196x768 where
  lhsContracting := [2]
  rhsContracting := [0]
  lhsNonContracting := [0, 1]
  rhsNonContracting := [1]
  lhsBatch := []
  rhsBatch := []
  wf := dot_S128x196x768_S768x768_S128x196x768_2_0_01_1_n_n_wf
def gather_S197x768_S197x1_S197x768_1_0_n_n_0_1_1768 : GatherDims S197x768 S197x1 S197x768 where
  offsetDims := [1]
  collapsedSliceDims := [0]
  operandBatchingDims := []
  startIndicesBatchingDims := []
  startIndexMap := [0]
  indexVectorDim := 1
  sliceSizes := ![1, 768]
  wf := gather_S197x768_S197x1_S197x768_1_0_n_n_0_1_1768_wf

class Facts : Prop extends Facts₀ where

variable [Facts]
-- ==== Proof.Tokens.lean ====
/-
  The token table of a patch embedding, stated once, index by index.

  For a batch of `B` images, each cut into 196 patches of 768 features, the result has 393 token rows per image:
  row 0 is the class embedding `emb[0]`; for `i < 196` row `1 + 2 i` is the patch-number embedding `emb[1 + i]` and
  row `2 + 2 i` is the linear projection of patch `i`, `∑ₖ x[n, i, k] · W[k, e] + bias[e]`. The positional table
  `pos[0, r, e]` is then added to every row. `tok` is the table before the positional term, `G` the whole result.
  Both programs of this certificate compute `G`; the batch extent is a parameter so that one batch tile of four
  images and the whole batch of 128 are the same formula.
-/
import Idealize.ShloMosaic.PureOps.Ideal
import Idealize.ShloMosaic.Lib.ValueIdx

noncomputable section

open scoped BigOperators

namespace Cert.PatchTokens

open Idealize.ShloMosaic Idealize.ShloMosaic.ValueIdx

/-- Row `r` of image `n`, feature `e`, before the positional term: the class embedding, a patch-number embedding,
    or a projected patch, by `r = 0`, `r − 1` even, `r − 1` odd. -/
def tok {B : Nat} (x : (⟨3, ![B, 196, 768]⟩ : Shape).Idx → EReal) (W : (⟨2, ![768, 768]⟩ : Shape).Idx → EReal)
    (bias : (⟨1, ![768]⟩ : Shape).Idx → EReal) (emb : (⟨2, ![197, 768]⟩ : Shape).Idx → EReal)
    (n : Fin B) (r : Fin 393) (e : Fin 768) : EReal :=
  if r.val = 0 then emb (ix2 ⟨0, by omega⟩ e)
  else if (r.val - 1) % 2 = 0 then emb (ix2 ⟨1 + (r.val - 1) / 2, by have := r.isLt; omega⟩ e)
  else (∑ k : Fin 768, x (ix3 n ⟨(r.val - 1) / 2, by have := r.isLt; omega⟩ k) * W (ix2 k e)) + bias (ix1 e)

/-- The whole result: the token table plus the positional table, which does not depend on the image. -/
def G {B : Nat} (x : (⟨3, ![B, 196, 768]⟩ : Shape).Idx → EReal) (W : (⟨2, ![768, 768]⟩ : Shape).Idx → EReal)
    (bias : (⟨1, ![768]⟩ : Shape).Idx → EReal) (emb : (⟨2, ![197, 768]⟩ : Shape).Idx → EReal)
    (pos : (⟨3, ![1, 393, 768]⟩ : Shape).Idx → EReal) : (⟨3, ![B, 393, 768]⟩ : Shape).Idx → EReal :=
  fun i => tok x W bias emb (i 0) (i 1) (i 2) + pos (ix3 ⟨0, Nat.one_pos⟩ (i 1) (i 2))

variable {B : Nat} (x : (⟨3, ![B, 196, 768]⟩ : Shape).Idx → EReal) (W : (⟨2, ![768, 768]⟩ : Shape).Idx → EReal)
  (bias : (⟨1, ![768]⟩ : Shape).Idx → EReal) (emb : (⟨2, ![197, 768]⟩ : Shape).Idx → EReal)
  (pos : (⟨3, ![1, 393, 768]⟩ : Shape).Idx → EReal)

theorem G_apply (n : Fin B) (r : Fin 393) (e : Fin 768) :
    G x W bias emb pos (ix3 n r e) = tok x W bias emb n r e + pos (ix3 ⟨0, Nat.one_pos⟩ r e) := rfl

/-- Row 0 is the class embedding. -/
theorem tok_cls (n : Fin B) (r : Fin 393) (e : Fin 768) (h0 : r.val = 0) :
    tok x W bias emb n r e = emb (ix2 ⟨0, by omega⟩ e) := by
  unfold tok; rw [if_pos h0]

/-- Row `1 + 2 i` is the patch-number embedding `emb[1 + i]`. -/
theorem tok_patch (n : Fin B) (r : Fin 393) (e : Fin 768) (h0 : r.val ≠ 0) (h1 : (r.val - 1) % 2 = 0) :
    tok x W bias emb n r e = emb (ix2 ⟨1 + (r.val - 1) / 2, by have := r.isLt; omega⟩ e) := by
  unfold tok; rw [if_neg h0, if_pos h1]

/-- Row `2 + 2 i` is the projection of patch `i` plus the bias. -/
theorem tok_proj (n : Fin B) (r : Fin 393) (e : Fin 768) (h0 : r.val ≠ 0) (h1 : (r.val - 1) % 2 ≠ 0) :
    tok x W bias emb n r e
      = (∑ k : Fin 768, x (ix3 n ⟨(r.val - 1) / 2, by have := r.isLt; omega⟩ k) * W (ix2 k e)) + bias (ix1 e) := by
  unfold tok; rw [if_neg h0, if_neg h1]

end Cert.PatchTokens

end
-- ==== Proof.TileLayout.lean ====
/-
  What the kernel body stores for one batch tile, read at one index.

  The body takes a tile of four images `x0 : [4, 196, 768]`, the weights, the bias, rows 1–196 and row 0 of the
  embedding table (two loads of the same block) and the positional table, and stores one `[4, 393, 768]` block.
  Its layout operations only move entries: the four images' patches are flattened to 784 rows for one matrix
  product and cut back into images; the patch-number embeddings and the projections are stacked on a new axis of
  extent two and that axis is merged into the rows, which interleaves them; the class row is put in front. Read at
  image `p`, row `r`, feature `e` the block is therefore the token table `tok` of the tile plus the positional term.
-/
import proofs.«173162_j13769665151180_1_alg».proof.KernelIdeal
import Idealize.ShloMosaic.Lib.Pipeline.Value
import Idealize.ShloMosaic.Lib.ValueIdx

noncomputable section

open scoped BigOperators

namespace Cert.KernelIdeal.Tile

open Cert.KernelIdeal Idealize.ShloMosaic Idealize.ShloMosaic.ValueIdx

variable {α : Type}

/-! ## The layout operations of the body, one at a time -/

/-- The positional table, broadcast over the tile's four images, read at an index. -/
theorem pos_bcast (v : S1x393x768.Idx → α) (h : S1x393x768.Broadcasts S4x393x768) (p : Fin 4) (r : Fin 393) (e : Fin 768) :
    broadcastTo S4x393x768 v h (ix3 p r e) = v (ix3 ⟨0, Nat.one_pos⟩ r e) :=
  broadcastTo_apply v h _ _ (fun a => match a with
    | ⟨0, _⟩ => by show 0 = if (1 : Nat) = 1 then 0 else p.val; rw [if_pos rfl]
    | ⟨1, _⟩ => by show r.val = if (393 : Nat) = 1 then 0 else r.val; rw [if_neg (by decide)]
    | ⟨2, _⟩ => by show e.val = if (768 : Nat) = 1 then 0 else e.val; rw [if_neg (by decide)])

/-- Row 0 of the block is the class piece. -/
theorem rows_cls (u : S4x1x768.Idx → α) (w : S4x392x768.Idx → α)
    (h : Shape.Concatenates [S4x1x768, S4x392x768] S4x393x768 1) (p : Fin 4) (r : Fin 393) (e : Fin 768) (h0 : r.val = 0) :
    concatenate S4x393x768 1 [⟨S4x1x768, u⟩, ⟨S4x392x768, w⟩] h (ix3 p r e) = u (ix3 p ⟨0, Nat.one_pos⟩ e) :=
  concatenate_pair_apply_left (1 : Fin 3) u w h (ix3 p r e) rfl (ix3 p ⟨0, Nat.one_pos⟩ e) (fun b => by
    match b with
    | ⟨0, _⟩ => rfl
    | ⟨1, _⟩ => exact h0.symm
    | ⟨2, _⟩ => rfl)

/-- Row `r ≥ 1` of the block is row `r − 1` of the interleaved piece. -/
theorem rows_rest (u : S4x1x768.Idx → α) (w : S4x392x768.Idx → α)
    (h : Shape.Concatenates [S4x1x768, S4x392x768] S4x393x768 1) (p : Fin 4) (r : Fin 393) (e : Fin 768) (h0 : r.val ≠ 0) :
    concatenate S4x393x768 1 [⟨S4x1x768, u⟩, ⟨S4x392x768, w⟩] h (ix3 p r e)
      = w (ix3 p ⟨r.val - 1, by have := r.isLt; omega⟩ e) :=
  concatenate_pair_apply_right (1 : Fin 3) u w h (ix3 p r e) rfl rfl (ix3 p ⟨r.val - 1, by have := r.isLt; omega⟩ e)
    (fun b hb => by
      match b, hb with
      | ⟨0, _⟩, _ => rfl
      | ⟨1, _⟩, hb => exact absurd (Fin.ext rfl) hb
      | ⟨2, _⟩, _ => rfl)
    (by show (r.val - 1) + 1 = r.val; omega)

/-- Merging the axis of extent two into the rows: row `q` of the merged array is entry `(q / 2, q % 2)`. -/
theorem merge_pairs (v : S4x196x2x768.Idx → α) (h : S4x196x2x768.ShapeCasts S4x392x768) (p : Fin 4) (q : Fin 392) (e : Fin 768) :
    shapeCast S4x392x768 v h (ix3 p q e)
      = v (ix4 p ⟨q.val / 2, by have := q.isLt; omega⟩ ⟨q.val % 2, by omega⟩ e) :=
  shapeCast_apply v h _ _ (by
    rw [Shape.rowMajor_val_four, Shape.rowMajor_val_three]
    show ((p.val * 196 + q.val / 2) * 2 + q.val % 2) * 768 + e.val = (p.val * 392 + q.val) * 768 + e.val
    have := q.isLt
    omega)

/-- Position 0 of the stacked pair is the first piece. -/
theorem pair_fst (u w : S4x196x1x768.Idx → α)
    (h : Shape.Concatenates [S4x196x1x768, S4x196x1x768] S4x196x2x768 2) (p : Fin 4) (i : Fin 196) (s : Fin 2) (e : Fin 768)
    (hs : s.val = 0) :
    concatenate S4x196x2x768 2 [⟨S4x196x1x768, u⟩, ⟨S4x196x1x768, w⟩] h (ix4 p i s e) = u (ix4 p i ⟨0, Nat.one_pos⟩ e) :=
  concatenate_pair_apply_left (2 : Fin 4) u w h (ix4 p i s e) rfl (ix4 p i ⟨0, Nat.one_pos⟩ e) (fun b => by
    match b with
    | ⟨0, _⟩ => rfl
    | ⟨1, _⟩ => rfl
    | ⟨2, _⟩ => exact hs.symm
    | ⟨3, _⟩ => rfl)

/-- Position 1 of the stacked pair is the second piece. -/
theorem pair_snd (u w : S4x196x1x768.Idx → α)
    (h : Shape.Concatenates [S4x196x1x768, S4x196x1x768] S4x196x2x768 2) (p : Fin 4) (i : Fin 196) (s : Fin 2) (e : Fin 768)
    (hs : s.val ≠ 0) :
    concatenate S4x196x2x768 2 [⟨S4x196x1x768, u⟩, ⟨S4x196x1x768, w⟩] h (ix4 p i s e) = w (ix4 p i ⟨0, Nat.one_pos⟩ e) :=
  concatenate_pair_apply_right (2 : Fin 4) u w h (ix4 p i s e) rfl rfl (ix4 p i ⟨0, Nat.one_pos⟩ e)
    (fun b hb => by
      match b, hb with
      | ⟨0, _⟩, _ => rfl
      | ⟨1, _⟩, _ => rfl
      | ⟨2, _⟩, hb => exact absurd (Fin.ext rfl) hb
      | ⟨3, _⟩, _ => rfl)
    (by show 0 + 1 = s.val; have := s.isLt; omega)

/-- A unit axis inserted before the features does not move entries. -/
theorem add_unit (v : S4x196x768.Idx → α) (h : S4x196x768.ShapeCasts S4x196x1x768) (p : Fin 4) (i : Fin 196) (e : Fin 768) :
    shapeCast S4x196x1x768 v h (ix4 p i ⟨0, Nat.one_pos⟩ e) = v (ix3 p i e) :=
  shapeCast_apply v h _ _ (by
    rw [Shape.rowMajor_val_four, Shape.rowMajor_val_three]
    show (p.val * 196 + i.val) * 768 + e.val = ((p.val * 196 + i.val) * 1 + 0) * 768 + e.val
    omega)

/-- The patch-number embeddings, broadcast over the tile's four images. -/
theorem patch_bcast (v : S1x196x768.Idx → α) (h : S1x196x768.Broadcasts S4x196x768) (p : Fin 4) (i : Fin 196) (e : Fin 768) :
    broadcastTo S4x196x768 v h (ix3 p i e) = v (ix3 ⟨0, Nat.one_pos⟩ i e) :=
  broadcastTo_apply v h _ _ (fun a => match a with
    | ⟨0, _⟩ => by show 0 = if (1 : Nat) = 1 then 0 else p.val; rw [if_pos rfl]
    | ⟨1, _⟩ => by show i.val = if (196 : Nat) = 1 then 0 else i.val; rw [if_neg (by decide)]
    | ⟨2, _⟩ => by show e.val = if (768 : Nat) = 1 then 0 else e.val; rw [if_neg (by decide)])

/-- A leading unit axis put on the `[196, 768]` block of embeddings. -/
theorem patch_lead (v : S196x768.Idx → α) (h : S196x768.ShapeCasts S1x196x768) (i : Fin 196) (e : Fin 768) :
    shapeCast S1x196x768 v h (ix3 ⟨0, Nat.one_pos⟩ i e) = v (ix2 i e) :=
  shapeCast_apply v h _ _ (by
    rw [Shape.rowMajor_val_three, Shape.rowMajor_val_two]
    show i.val * 768 + e.val = (0 * 196 + i.val) * 768 + e.val
    omega)

/-- The class row, broadcast over the tile's four images. -/
theorem cls_bcast (v : S1x1x768.Idx → α) (h : S1x1x768.Broadcasts S4x1x768) (p : Fin 4) (e : Fin 768) :
    broadcastTo S4x1x768 v h (ix3 p ⟨0, Nat.one_pos⟩ e) = v (ix3 ⟨0, Nat.one_pos⟩ ⟨0, Nat.one_pos⟩ e) :=
  broadcastTo_apply v h _ _ (fun a => match a with
    | ⟨0, _⟩ => by show 0 = if (1 : Nat) = 1 then 0 else p.val; rw [if_pos rfl]
    | ⟨1, _⟩ => by show 0 = if (1 : Nat) = 1 then 0 else 0; rw [if_pos rfl]
    | ⟨2, _⟩ => by show e.val = if (768 : Nat) = 1 then 0 else e.val; rw [if_neg (by decide)])

/-- A leading unit axis put on the `[1, 768]` class row. -/
theorem cls_lead (v : S1x768.Idx → α) (h : S1x768.ShapeCasts S1x1x768) (e : Fin 768) :
    shapeCast S1x1x768 v h (ix3 ⟨0, Nat.one_pos⟩ ⟨0, Nat.one_pos⟩ e) = v (ix2 ⟨0, Nat.one_pos⟩ e) :=
  shapeCast_apply v h _ _ (by
    rw [Shape.rowMajor_val_three, Shape.rowMajor_val_two]
    show 0 * 768 + e.val = (0 * 1 + 0) * 768 + e.val
    omega)

/-- The bias as one row, broadcast down the 784 flattened rows. -/
theorem bias_bcast (v : S1x768.Idx → α) (h : S1x768.Broadcasts S784x768) (ρ : Fin 784) (e : Fin 768) :
    broadcastTo S784x768 v h (ix2 ρ e) = v (ix2 ⟨0, Nat.one_pos⟩ e) :=
  broadcastTo_apply v h _ _ (fun a => match a with
    | ⟨0, _⟩ => by show 0 = if (1 : Nat) = 1 then 0 else ρ.val; rw [if_pos rfl]
    | ⟨1, _⟩ => by show e.val = if (768 : Nat) = 1 then 0 else e.val; rw [if_neg (by decide)])

/-- The bias vector as one row. -/
theorem bias_row (v : S768.Idx → α) (h : S768.ShapeCasts S1x768) (e : Fin 768) :
    shapeCast S1x768 v h (ix2 ⟨0, Nat.one_pos⟩ e) = v (ix1 e) :=
  shapeCast_apply v h _ _ (by
    rw [Shape.rowMajor_val_two, Shape.rowMajor_val_one]
    show e.val = 0 * 768 + e.val
    omega)

end Cert.KernelIdeal.Tile

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibFlatRows.lean ====
/-
  A rank-three array `[a, b, c]` and the matrix `[a·b, c]` of its rows, read at an index: general facts, independent of
  any program.

  Flattening the two leading axes keeps the row-major order, so row `i·b + j` of the matrix is row `(i, j)` of the
  array, and the cast back reads the matrix at that row. A host reduction with a maximum body along the last axis —
  of the matrix, or of the rank-three array — is, at a row, the fold of `max` from the initial value over that row's
  entries. With these a computation done row by row gives the same answer on the array and on its matrix of rows.
-/
import Idealize.ShloMosaic.PureOps.Ideal
import Idealize.ShloMosaic.PureOps.Ideal.Laws
import Idealize.ShloMosaic.Lib.Pipeline.Value
import Idealize.ShloMosaic.Lib.ValueIdx

namespace Idealize.ShloMosaic.ValueIdx

variable {α : Type}

/-- An `[a, b, c]` array flattened to `[n, c]` (`n = a·b`) reads, at `(p, k)` with `p = i·b + j`, the array at
    `(i, j, k)`: both have row-major position `(i·b + j)·c + k`. -/
theorem shapeCast_abc_rows_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` matrix (`n = a·b`) cast to `[a, b, c]` reads, at `(i, j, k)`, the matrix at row `p = i·b + j`,
    column `k`. -/
theorem shapeCast_rows_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

/-- Along the last axis of a matrix, the index lifted from row `p` with column `k` inserted is `(p, k)`. -/
theorem lift_last_of2 {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- Along the last axis of a rank-three array, the index lifted from `(i, j)` with `k` inserted is `(i, j, k)`. -/
theorem lift_last_of3 {a b c : ℕ} (hred : (⟨3, ![a, b, c]⟩ : Shape).Reduces [2] ⟨2, ![a, b]⟩) (i : Fin a) (j : Fin b)
    (k : Fin c) : hred.lift (ix2 i j) k = ix3 i j k := by
  funext ax
  match ax with
  | ⟨0, _⟩ => exact Fin.ext rfl
  | ⟨1, _⟩ => exact Fin.ext rfl
  | ⟨2, _⟩ => exact Fin.ext rfl

/-- THE HOST'S ROW MAXIMUM of a matrix: a `stablehlo.reduce` with a maximum body over axis 1 of an `[a, b]` array,
    read at row `p`, is the fold of `max` from the initial value over the entries `(p, k)` of that row. -/
theorem hostMax_last_of2 {a b : ℕ} (x : (⟨⟨2, ![a, b]⟩, .f32⟩ : BufTy).Contents (Elt Ideal))
    (init : (⟨⟨0, ![]⟩, .f32⟩ : BufTy).Contents (Elt Ideal))
    (h₁ : (⟨2, ![a, b]⟩ : Shape).ReducesTo [1] ⟨1, ![a]⟩) (h₂ : 0 < (⟨0, ![]⟩ : Shape).numel)
    (hred : (⟨2, ![a, b]⟩ : Shape).Reduces [1] ⟨1, ![a]⟩) (p : Fin a) :
    Host.reduce (FloatOps.maximumf (F := Ideal) (φ := .f32)) x init h₁ h₂ (ix1 p)
      = (Finset.univ : Finset (Fin b)).fold max (init ix0) (fun k => x (ix2 p k)) := by
  refine (Host.reduce_eq_fold_single (α := EReal) (FloatOps.maximumf (F := Ideal) (φ := .f32))
    (x : (⟨2, ![a, b]⟩ : Shape).Idx → EReal) (init : (⟨0, ![]⟩ : Shape).Idx → EReal) h₁ hred h₂ (ix1 p)).trans ?_
  have hf : (x ∘ hred.lift (ix1 p)) = fun k : Fin b => x (ix2 p k) := funext fun k => congrArg x (lift_last_of2 hred p k)
  rw [eq_ix0 (Shape.Idx.first h₂)]
  exact congrArg (fun f => Finset.fold max (init ix0) f (Finset.univ : Finset (Fin b))) hf

/-- THE HOST'S ROW MAXIMUM of a rank-three array: the same over axis 2 of an `[a, b, c]` array, read at `(i, j)`: the
    fold of `max` from the initial value over the entries `(i, j, k)`. -/
theorem hostMax_last_of3 {a b c : ℕ} (x : (⟨⟨3, ![a, b, c]⟩, .f32⟩ : BufTy).Contents (Elt Ideal))
    (init : (⟨⟨0, ![]⟩, .f32⟩ : BufTy).Contents (Elt Ideal))
    (h₁ : (⟨3, ![a, b, c]⟩ : Shape).ReducesTo [2] ⟨2, ![a, b]⟩) (h₂ : 0 < (⟨0, ![]⟩ : Shape).numel)
    (hred : (⟨3, ![a, b, c]⟩ : Shape).Reduces [2] ⟨2, ![a, b]⟩) (i : Fin a) (j : Fin b) :
    Host.reduce (FloatOps.maximumf (F := Ideal) (φ := .f32)) x init h₁ h₂ (ix2 i j)
      = (Finset.univ : Finset (Fin c)).fold max (init ix0) (fun k => x (ix3 i j k)) := by
  refine (Host.reduce_eq_fold_single (α := EReal) (FloatOps.maximumf (F := Ideal) (φ := .f32))
    (x : (⟨3, ![a, b, c]⟩ : Shape).Idx → EReal) (init : (⟨0, ![]⟩ : Shape).Idx → EReal) h₁ hred h₂ (ix2 i j)).trans ?_
  have hf : (x ∘ hred.lift (ix2 i j)) = fun k : Fin c => x (ix3 i j k) := funext fun k => congrArg x (lift_last_of3 hred i j k)
  rw [eq_ix0 (Shape.Idx.first h₂)]
  exact congrArg (fun f => Finset.fold max (init ix0) f (Finset.univ : Finset (Fin c))) hf

end Idealize.ShloMosaic.ValueIdx
-- ==== Proof.TileValue.lean ====
/-
  One batch tile's stored block is the token table of its four images plus the positional table.

  The body's payload is read at image `p`, row `r`, feature `e` through its layout operations (TileLayout): the
  positional term, then by the row the class row, a patch-number embedding, or a projected patch. The projection is
  one `[784, 768] × [768, 768]` product over the four images' patches flattened to 784 rows; row `p · 196 + i` of it is
  patch `i` of image `p`, so its entry is the sum over the 768 input features, plus the bias. The narrowing of both
  operands to bf16 before the product does not change an extended real. What the loads hold is given by hypotheses,
  one per load, so that the statement is against the whole arrays: image `p` of tile `t` is image `4 t + p`.
-/
import proofs.«173162_j13769665151180_1_alg».proof.Proof.Gen.KernelIdeal.Skeleton
import proofs.«173162_j13769665151180_1_alg».proof.Proof.Tokens
import proofs.«173162_j13769665151180_1_alg».proof.Proof.TileLayout
import proofs.«173162_j13769665151180_1_alg».proof.Proof.LibDense
import proofs.«173162_j13769665151180_1_alg».proof.Proof.LibFlatRows
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.PatchTokens

/-! ## Where the product reads its operands -/

theorem dot_lhs_row (i : S784x768.Idx) (q : dot_S784x768_S768x768_S784x768_1_0_0_1_n_n.contr.Idx) :
    (dot_S784x768_S768x768_S784x768_1_0_0_1_n_n.lhsIdx i q 0).val = (i 0).val := by
  unfold DotDims.lhsIdx
  rw [dif_neg (show ¬(0 : Fin S784x768.rank) ∈ dot_S784x768_S768x768_S784x768_1_0_0_1_n_n.lhsBatch by decide),
    dif_pos (show (0 : Fin S784x768.rank) ∈ dot_S784x768_S768x768_S784x768_1_0_0_1_n_n.lhsNonContracting by decide)]
  rfl

theorem dot_lhs_col (i : S784x768.Idx) (q : dot_S784x768_S768x768_S784x768_1_0_0_1_n_n.contr.Idx) :
    (dot_S784x768_S768x768_S784x768_1_0_0_1_n_n.lhsIdx i q 1).val = (q ⟨0, by decide⟩).val :=
  dot_S784x768_S768x768_S784x768_1_0_0_1_n_n.lhsIdx_val_of_single rfl i q

theorem dot_rhs_row (i : S784x768.Idx) (q : dot_S784x768_S768x768_S784x768_1_0_0_1_n_n.contr.Idx) :
    (dot_S784x768_S768x768_S784x768_1_0_0_1_n_n.rhsIdx i q 0).val = (q ⟨0, by decide⟩).val :=
  dot_S784x768_S768x768_S784x768_1_0_0_1_n_n.rhsIdx_val_of_single rfl i q

theorem dot_rhs_col (i : S784x768.Idx) (q : dot_S784x768_S768x768_S784x768_1_0_0_1_n_n.contr.Idx) :
    (dot_S784x768_S768x768_S784x768_1_0_0_1_n_n.rhsIdx i q 1).val = (i 1).val := by
  unfold DotDims.rhsIdx
  rw [dif_neg (show ¬(1 : Fin S768x768.rank) ∈ dot_S784x768_S768x768_S784x768_1_0_0_1_n_n.rhsBatch by decide),
    dif_pos (show (1 : Fin S768x768.rank) ∈ dot_S784x768_S768x768_S784x768_1_0_0_1_n_n.rhsNonContracting by decide)]
  rfl

/-- The product into the zero accumulator, at row `ρ`, column `e`: the sum over the contracted axis. -/
theorem product_apply (a : FVec Ideal S784x768 .bf16) (w : FVec Ideal S768x768 .bf16) (ρ : Fin 784) (e : Fin 768) :
    matmul dot_S784x768_S768x768_S784x768_1_0_0_1_n_n none a w (constant S784x768 .f32 0x00000000#32) (ix2 ρ e)
      = ∑ k : Fin 768, a (ix2 ρ k) * w (ix2 k e) :=
  matmul_zero_plain_apply dot_S784x768_S768x768_S784x768_1_0_0_1_n_n none rfl rfl
    dot_lhs_row dot_lhs_col dot_rhs_row dot_rhs_col a w ρ e

/-! ## The projected patches of the tile -/

/-- The tile's projections (the payload's `%10`), at image `p`, patch `i`, feature `e`. -/
theorem proj_apply (v0 : Vec Ideal S4x196x768 .f32) (v3 : Vec Ideal S768x768 .f32) (v6 : Vec Ideal S768 .f32)
    (h1 : S4x196x768.ShapeCasts S784x768) (hb : FTy.bits .bf16 < FTy.bits .f32) (h7 : S768.ShapeCasts S1x768)
    (h8 : S1x768.Broadcasts S784x768) (h10 : S784x768.ShapeCasts S4x196x768) (p : Fin 4) (i : Fin 196) (e : Fin 768) :
    shapeCast S4x196x768
        (addf (matmul dot_S784x768_S768x768_S784x768_1_0_0_1_n_n none
            (truncf .bf16 (shapeCast S784x768 v0 h1 : FVec Ideal S784x768 .f32) hb)
            (truncf .bf16 (v3 : FVec Ideal S768x768 .f32) hb) (constant S784x768 .f32 0x00000000#32))
          (broadcastTo S784x768 (shapeCast S1x768 v6 h7) h8)) h10 (ix3 p i e)
      = (∑ k : Fin 768, v0 (ix3 p i k) * v3 (ix2 k e)) + v6 (ix1 e) := by
  have hp := p.isLt
  have hi := i.isLt
  rw [shapeCast_rows_abc_apply _ h10 p i e (⟨p.val * 196 + i.val, by omega⟩ : Fin 784) rfl, addf_apply, product_apply,
    bias_bcast, bias_row]
  refine congrArg (· + v6 (ix1 e)) (Finset.sum_congr rfl fun k _ => ?_)
  rw [truncf_apply, truncf_apply, shapeCast_abc_rows_apply v0 h1 p i k (⟨p.val * 196 + i.val, by omega⟩ : Fin 784) rfl]

/-! ## The stored block at an index -/

/-- THE TILE: the payload at image `p`, row `r`, feature `e` is `G` of the whole arrays at image `4 t + p`, when the
    loads hold what the hypotheses say: the tile's images, the whole weights, bias and positional table, and rows
    1–196 and row 0 of the embedding table. -/
theorem tile_apply (v0 : Vec Ideal S4x196x768 .f32) (v3 : Vec Ideal S768x768 .f32) (v6 : Vec Ideal S768 .f32)
    (v11 : Vec Ideal S196x768 .f32) (v15 : Vec Ideal S1x768 .f32) (v24 : Vec Ideal S1x393x768 .f32)
    (X0 : S128x196x768.Idx → EReal) (X1 : S768x768.Idx → EReal) (X2 : S768.Idx → EReal) (X3 : S197x768.Idx → EReal)
    (X4 : S1x393x768.Idx → EReal) (t : Nat) (ht : t < 32) (p : Fin 4) (r : Fin 393) (e : Fin 768)
    (h0 : ∀ (i : Fin 196) (k : Fin 768), v0 (ix3 p i k) = X0 (ix3 (⟨4 * t + p.val, by omega⟩ : Fin 128) i k))
    (h3 : ∀ (k e : Fin 768), v3 (ix2 k e) = X1 (ix2 k e))
    (h6 : ∀ e : Fin 768, v6 (ix1 e) = X2 (ix1 e))
    (h11 : ∀ (i : Fin 196) (e : Fin 768), v11 (ix2 i e) = X3 (ix2 (⟨1 + i.val, by omega⟩ : Fin 197) e))
    (h15 : ∀ e : Fin 768, v15 (ix2 (⟨0, Nat.one_pos⟩ : Fin 1) e) = X3 (ix2 (⟨0, by omega⟩ : Fin 197) e))
    (h24 : ∀ (r : Fin 393) (e : Fin 768), v24 (ix3 (⟨0, Nat.one_pos⟩ : Fin 1) r e) = X4 (ix3 (⟨0, Nat.one_pos⟩ : Fin 1) r e)) :
    k0_pay1 (F := Ideal) v0 v3 v6 v11 v15 v24 (ix3 p r e)
      = G X0 X1 X2 X3 X4 (ix3 (⟨4 * t + p.val, by omega⟩ : Fin 128) r e) := by
  have hr := r.isLt
  rw [G_apply, ← h24 r e]
  unfold k0_pay1
  rw [addf_apply, pos_bcast]
  refine congrArg (· + v24 (ix3 (⟨0, Nat.one_pos⟩ : Fin 1) r e)) ?_
  by_cases hr0 : r.val = 0
  · rw [tok_cls _ _ _ _ _ r e hr0, rows_cls _ _ _ p r e hr0, cls_bcast, shapeCast_self, cls_lead, h15]
  · rw [rows_rest _ _ _ p r e hr0, merge_pairs]
    by_cases hr1 : (r.val - 1) % 2 = 0
    · rw [tok_patch _ _ _ _ _ r e hr0 hr1, pair_fst _ _ _ p _ _ e hr1, add_unit, patch_bcast, shapeCast_self, patch_lead, h11]
    · rw [tok_proj _ _ _ _ _ r e hr0 hr1, pair_snd _ _ _ p _ _ e hr1, add_unit, proj_apply]
      refine congrArg₂ (· + ·) (Finset.sum_congr rfl fun k _ => ?_) (h6 e)
      rw [h0, h3]

end Cert.KernelIdeal.Tile

end
-- ==== Proof.BatchTiles.lean ====
/-
  From batch tiles to the whole result array.

  The grid has 32 points; point `t` stages images `4 t … 4 t + 3` of `x`, the whole weights, bias, embedding table and
  positional table (their block index is 0 at every point), and writes back images `4 t … 4 t + 3` of the result.
  What a point writes back is its tile's payload, which read at an index is `G` of the whole arrays at that index
  (TileValue); the 32 blocks cover the result, image `n` lying in block `n / 4`. So after the run the result array
  is `G` of the argument arrays.
-/
import proofs.«173162_j13769665151180_1_alg».proof.Proof.Gen.KernelIdeal.Value
import proofs.«173162_j13769665151180_1_alg».proof.Proof.TileValue
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Batch

open Cert.KernelIdeal Cert.KernelIdeal.Gen Cert.KernelIdeal.Tile Idealize.ShloMosaic.ValueIdx Cert.PatchTokens

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps over the 32 grid points: the image windows move with the point, the others stay at block 0. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- WHAT POINT `t` WRITES BACK is block `t` of `G` of the argument arrays. -/
theorem flushed_eq (c : Dev nD) (t : Fin cfg0.N) :
    (dats m 0 c).flushed 5 t = ((cfg0.win 5).blk t).view.read (Elt Ideal)
      (G (V m c main_arg0) (V m c main_arg1) (V m c main_arg2) (V m c main_arg3) (V m c main_arg4)) := by
  rw [Cert.KernelIdeal.Value.flushed5]
  unfold out0_5
  rw [View.canon_unit_zero zeros3]
  simp only [View.ld_unit_zero (S := S4x196x768) zeros3, View.ld_unit_zero (S := S768x768) zeros2,
    View.ld_unit_zero (S := S768) zeros1, View.ld_unit_zero (S := S1x393x768) zeros3]
  obtain ⟨a00, a01, a02, a10, a11, a20, a30, a31, a40, a41, a42, a50, a51, a52⟩ := block_indices t
  have ht : t.val < 32 := lt_of_lt_of_eq t.isLt (N_0 : cfg0.N = 32)
  funext j
  obtain ⟨p, r, e, rfl⟩ : ∃ (p : Fin 4) (r : Fin 393) (e : Fin 768), j = ix3 p r e := ⟨j 0, j 1, j 2, eq_ix3 j⟩
  have hp := p.isLt
  have hr := r.isLt
  have he := e.isLt
  show k0_pay1 (F := Ideal) (iblk m c 0 t) (iblk m c 1 t) (iblk m c 2 t) (View.ld (iblk m c 3 t) r0_3)
      (View.ld (iblk m c 3 t) r0_4) (iblk m c 4 t) (ix3 p r e)
    = G (V m c main_arg0) (V m c main_arg1) (V m c main_arg2) (V m c main_arg3) (V m c main_arg4)
        (((cfg0.win 5).blk t).view.emb (ix3 p r e))
  refine (tile_apply _ _ _ _ _ _ (V m c main_arg0) (V m c main_arg1) (V m c main_arg2) (V m c main_arg3) (V m c main_arg4)
    t.val ht p r e ?_ ?_ ?_ ?_ ?_ ?_).trans ?_
  · intro i k
    have hi := i.isLt
    have hk := k.isLt
    show V m c main_arg0 (((cfg0.win 0).blk t).view.emb (ix3 p i k)) = _
    refine congrArg _ (funext fun a => Fin.ext ?_)
    match a with
    | ⟨0, _⟩ => show win0_0.index t (0 : Fin 3) * 4 + 1 * p.val = 4 * t.val + p.val; omega
    | ⟨1, _⟩ => show win0_0.index t (1 : Fin 3) * 196 + 1 * i.val = i.val; omega
    | ⟨2, _⟩ => show win0_0.index t (2 : Fin 3) * 768 + 1 * k.val = k.val; omega
  · intro k e'
    have hk := k.isLt
    have he' := e'.isLt
    show V m c main_arg1 (((cfg0.win 1).blk t).view.emb (ix2 k e')) = _
    refine congrArg _ (funext fun a => Fin.ext ?_)
    match a with
    | ⟨0, _⟩ => show win0_1.index t (0 : Fin 2) * 768 + 1 * k.val = k.val; omega
    | ⟨1, _⟩ => show win0_1.index t (1 : Fin 2) * 768 + 1 * e'.val = e'.val; omega
  · intro e'
    show V m c main_arg2 (((cfg0.win 2).blk t).view.emb (ix1 e')) = _
    refine congrArg _ (funext fun a => Fin.ext ?_)
    match a with
    | ⟨0, _⟩ => show win0_2.index t (0 : Fin 1) * 768 + 1 * e'.val = e'.val; omega
  · intro i e'
    show V m c main_arg3 (((cfg0.win 3).blk t).view.emb (r0_3.toLoadRect.idx (ix2 i e'))) = _
    refine congrArg _ (funext fun a => Fin.ext ?_)
    match a with
    | ⟨0, _⟩ => show win0_3.index t (0 : Fin 2) * 197 + 1 * (1 + 1 * i.val) = 1 + i.val; omega
    | ⟨1, _⟩ => show win0_3.index t (1 : Fin 2) * 768 + 1 * (0 + 1 * e'.val) = e'.val; omega
  · intro e'
    show V m c main_arg3 (((cfg0.win 3).blk t).view.emb (r0_4.toLoadRect.idx (ix2 (⟨0, Nat.one_pos⟩ : Fin 1) e'))) = _
    refine congrArg _ (funext fun a => Fin.ext ?_)
    match a with
    | ⟨0, _⟩ => show win0_3.index t (0 : Fin 2) * 197 + 1 * (0 + 1 * 0) = 0; omega
    | ⟨1, _⟩ => show win0_3.index t (1 : Fin 2) * 768 + 1 * (0 + 1 * e'.val) = e'.val; omega
  · intro r' e'
    show V m c main_arg4 (((cfg0.win 4).blk t).view.emb (ix3 (⟨0, Nat.one_pos⟩ : Fin 1) r' e')) = _
    refine congrArg _ (funext fun a => Fin.ext ?_)
    match a with
    | ⟨0, _⟩ => show win0_4.index t (0 : Fin 3) * 1 + 1 * 0 = 0; omega
    | ⟨1, _⟩ => show win0_4.index t (1 : Fin 3) * 393 + 1 * r'.val = r'.val; omega
    | ⟨2, _⟩ => show win0_4.index t (2 : Fin 3) * 768 + 1 * e'.val = e'.val; omega
  · refine congrArg _ (funext fun a => Fin.ext ?_)
    match a with
    | ⟨0, _⟩ => show 4 * t.val + p.val = win0_5.index t (0 : Fin 3) * 4 + 1 * p.val; omega
    | ⟨1, _⟩ => show r.val = win0_5.index t (1 : Fin 3) * 393 + 1 * r.val; omega
    | ⟨2, _⟩ => show e.val = win0_5.index t (2 : Fin 3) * 768 + 1 * e.val; omega

/-- An index of the result is in point `t`'s block iff each coordinate is in the block's range on its axis. -/
theorem mem_block (t : Fin cfg0.N) (i : S128x393x768.Idx) :
    i ∈ ((cfg0.win 5).blk t).view.set ↔ ∀ a : Fin 3, win0_5.index t a * S4x393x768.size a ≤ (i a).val
      ∧ (i a).val < win0_5.index t a * S4x393x768.size a + S4x393x768.size a := by
  show i ∈ ((View.whole main_v0).slice (win0_5.rect t)).set ↔ _
  rw [View.set_slice_whole, Rect.mem_set_unit]
  exact Iff.rfl

/-- Image `n` of the result lies in the block of point `n / 4`. -/
theorem covered (i : S128x393x768.Idx) :
    ∃ t : Fin cfg0.N, (cfg0.win 5).flush t = true ∧ i ∈ ((cfg0.win 5).blk t).view.set := by
  have h0 : (i 0).val < 128 := (i 0).isLt
  have h1 : (i 1).val < 393 := (i 1).isLt
  have h2 : (i 2).val < 768 := (i 2).isLt
  have hN : cfg0.N = 32 := N_0
  refine ⟨⟨(i 0).val / 4, by omega⟩, flush0_5 _, ?_⟩
  obtain ⟨-, -, -, -, -, -, -, -, -, -, -, a50, a51, a52⟩ := block_indices ⟨(i 0).val / 4, by omega⟩
  rw [mem_block]
  intro a
  match a with
  | ⟨0, _⟩ =>
    show win0_5.index ⟨(i 0).val / 4, _⟩ (0 : Fin 3) * 4 ≤ (i 0).val
      ∧ (i 0).val < win0_5.index ⟨(i 0).val / 4, _⟩ (0 : Fin 3) * 4 + 4
    rw [a50]; show (i 0).val / 4 * 4 ≤ (i 0).val ∧ (i 0).val < (i 0).val / 4 * 4 + 4; omega
  | ⟨1, _⟩ =>
    show win0_5.index ⟨(i 0).val / 4, _⟩ (1 : Fin 3) * 393 ≤ (i 1).val
      ∧ (i 1).val < win0_5.index ⟨(i 0).val / 4, _⟩ (1 : Fin 3) * 393 + 393
    rw [a51]; omega
  | ⟨2, _⟩ =>
    show win0_5.index ⟨(i 0).val / 4, _⟩ (2 : Fin 3) * 768 ≤ (i 2).val
      ∧ (i 2).val < win0_5.index ⟨(i 0).val / 4, _⟩ (2 : Fin 3) * 768 + 768
    rw [a52]; omega

/-- THE RESULT ARRAY after the run is `G` of the argument arrays. -/
theorem final (c : Dev nD) : (dats m 0 c).arrAt 5 cfg0.N
    = G (V m c main_arg0) (V m c main_arg1) (V m c main_arg2) (V m c main_arg3) (V m c main_arg4) :=
  (dats m 0 c).arrAt_eq_of_cover 5 _ (fun t _ => flushed_eq m c t) covered

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Batch

end
-- ==== Proof.LibRowGather.lean ====
/-
  THE ROW GATHER READ AT AN INDEX. What `X[idx]` of a matrix `X : [N, C]` at an integer vector `idx : [E]`
  lowers to is `stablehlo.gather` with offset_dims `[1]`, collapsed_slice_dims `[0]`, start_index_map `[0]`,
  index_vector_dim `1` and slice_sizes `[1, C]` over the indices reshaped to `[E, 1]`: one whole row of the operand per
  start index. This file names those dimension numbers (`rowDims`) and proves the one fact a value proof needs
  (`gather_rows_apply`): result element `(t, q)` is the operand's element in column `q` of the row `idx[t, 0]`, that
  start index read as a signed integer and clamped into `[0, N − 1]`, as StableHLO's gather clamps every start index.
  On the row axis the slice has size 1, the axis is collapsed, and the start index map names it; on the column axis the
  start is 0 and the result's offset coordinate is the column. It follows `gather_take_apply` (the rank-1 operand) step by step.
-/
import Idealize.ShloMosaic.Lib.ValueIdx

noncomputable section

namespace Idealize.ShloMosaic.ValueIdx

open Idealize.ShloMosaic

section Rows
variable {α : Type}

/-- The row gather's dimension numbers for an operand `[N, C]`, start indices `[E, 1]` and result `[E, C]`; their
    conditions `wf` are decided on a program's literal shapes. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, q)`: column `q` of the operand's row `idx[t, 0]`, the start index read signed and
    clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (t : Fin E) (q : Fin C) :
    Host.gather (rowDims N E C wf) x idx (ix2 t q)
      = x (ix2 ⟨min (idx (ix2 t ⟨0, Nat.one_pos⟩)).toInt.toNat (N - 1), by omega⟩ q) := by
  unfold Host.gather
  congr 1
  funext a
  refine Fin.ext ?_
  show (rowDims N E C wf).start (ix2 t q) idx a + (rowDims N E C wf).batchCoord (ix2 t q) a
      + (rowDims N E C wf).offCoord (ix2 t q) a = _
  rw [GatherDims.batchCoord_eq_zero _ _ _ List.not_mem_nil]
  simp only [Nat.add_zero]
  match a with
  | ⟨0, _⟩ =>
    -- the row axis: collapsed, so no offset; named by the start index map, so the clamped start index
    show (rowDims N E C wf).start (ix2 t q) idx (0 : Fin 2) + (rowDims N E C wf).offCoord (ix2 t q) (0 : Fin 2)
      = min (idx (ix2 t ⟨0, Nat.one_pos⟩)).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 t q) ⟨List.idxOf (0 : Fin 2) (rowDims N E C wf).startIndexMap,
        List.idxOf_lt_length_iff.2 (List.mem_singleton.mpr rfl)⟩ = ix2 t ⟨0, Nat.one_pos⟩ := by
      funext b; refine Fin.ext ?_
      match b with
      | ⟨0, _⟩ => rfl
      | ⟨1, _⟩ => rfl
    rw [hsi]
    rfl
  | ⟨1, _⟩ =>
    -- the column axis: not in the start index map, so the start is 0; the offset is the result's column
    show (rowDims N E C wf).start (ix2 t q) idx (1 : Fin 2) + (rowDims N E C wf).offCoord (ix2 t q) (1 : Fin 2) = q.val
    unfold GatherDims.start
    rw [dif_neg (show (1 : Fin 2) ∉ (rowDims N E C wf).startIndexMap from
      fun h => absurd (congrArg Fin.val (List.mem_singleton.mp h)) Nat.one_ne_zero)]
    rw [Nat.zero_add]
    rfl

end Rows

end Idealize.ShloMosaic.ValueIdx

end
-- ==== Proof.RefLookup.lean ====
/-
  The reference's embedding lookup is the identity on the table's rows.

  The reference builds the token ids `0, 1, …, 196` as a zero followed by `1 + iota`, wraps negative ids by adding
  197 (none is negative), and gathers the rows of the embedding table at those ids. Id `t` is `t`, it is not
  wrapped, and clamped into `[0, 196]` it is still `t`; so the gathered table, read at row `t`, is the table's row `t`.
-/
import proofs.«173162_j13769665151180_1_alg».proof.Proof.Gen.ReferenceIdeal.Read
import proofs.«173162_j13769665151180_1_alg».proof.Proof.LibRowGather
import Idealize.ShloMosaic.Lib.Pipeline.Value
import Idealize.ShloMosaic.Lib.ValueIdx

noncomputable section

namespace Cert.ReferenceIdeal.Lookup

open Cert.ReferenceIdeal Cert.ReferenceIdeal.Gen Cert.ReferenceIdeal.Read Idealize.ShloMosaic Idealize.ShloMosaic.ValueIdx

variable {F : FTy → Type} [FloatOps F]

/-- On 32-bit words, for the 196 patch numbers: one plus `k − 1` is `k`. -/
theorem succ_word : ∀ k : Fin 197, k.val ≠ 0 → IntOp.addi 1#32 (BitVec.ofNat 32 (k.val - 1)) = BitVec.ofNat 32 k.val := by
  decide +kernel

/-- On 32-bit words, for the 197 ids: an id is not negative, so it is kept, and clamping it into `[0, 196]` keeps it. -/
theorem keep_word : ∀ k : Fin 197,
    min (Scalar.select (IntOp.cmpi .slt (BitVec.ofNat 32 k.val) 0#32) (IntOp.addi (BitVec.ofNat 32 k.val) 197#32)
      (BitVec.ofNat 32 k.val)).toInt.toNat (197 - 1) = k.val := by
  decide +kernel

/-- The token ids: a zero, then `1 + iota`: id `t` is `t`. -/
theorem ids_apply (t : Fin 197) : val_main_v8 (F := F) (ix1 t) = BitVec.ofNat 32 t.val := by
  unfold val_main_v8
  by_cases h0 : t.val = 0
  · refine (concatenate_pair_apply_left (t := S197) (s₁ := S1) (s₂ := S196) (0 : Fin 1) _ _ _ (ix1 t) rfl (ix1 (⟨0, Nat.one_pos⟩ : Fin 1)) (fun b => by
      match b with
      | ⟨0, _⟩ => exact h0.symm)).trans ?_
    rw [val_main_v4_apply, val_main_c_apply, h0]
  · refine (concatenate_pair_apply_right (t := S197) (s₁ := S1) (s₂ := S196) (0 : Fin 1) _ _ _ (ix1 t) rfl rfl
      (ix1 (⟨t.val - 1, by have := t.isLt; omega⟩ : Fin 196)) (fun b hb => by
        match b, hb with
        | ⟨0, _⟩, hb => exact absurd (Fin.ext rfl) hb)
      (by show (t.val - 1) + 1 = t.val; omega)).trans ?_
    rw [val_main_v7_apply, val_main_v6_apply, val_main_c_0_apply, val_main_v5_apply]
    exact succ_word t h0

/-- The start index of row `t`, read signed and clamped into the table, is `t`. -/
theorem start_row (t : Fin 197) :
    min (val_main_v14 (F := F) (ix2 t (⟨0, Nat.one_pos⟩ : Fin 1))).toInt.toNat (197 - 1) = t.val := by
  have hi : idx_main_v14 (ix2 t (⟨0, Nat.one_pos⟩ : Fin 1)) = ix1 t := funext fun a => by
    match a with
    | ⟨0, _⟩ => rfl
  rw [val_main_v14_apply, hi, val_main_v13_apply, val_main_v10_apply, val_main_v12_apply, val_main_v9_apply,
    val_main_v11_apply, val_main_c_1_apply, val_main_c_2_apply, ids_apply]
  exact keep_word t

/-- THE LOOKUP: the gathered table at `(t, q)` is the table at `(t, q)`. -/
theorem rows_apply (x3 : (⟨S197x768, .f32⟩ : BufTy).Contents (Elt F)) (t : Fin 197) (q : Fin 768) :
    val_main_v15 (F := F) x3 (ix2 t q) = x3 (ix2 t q) := by
  unfold val_main_v15
  refine (gather_rows_apply (N := 197) (E := 197) (C := 768) (by decide)
    gather_S197x768_S197x1_S197x768_1_0_n_n_0_1_1768.wf x3 (val_main_v14 (F := F)) t q).trans ?_
  exact congrArg x3 (congrArg (fun a => ix2 a q) (Fin.ext (start_row t)))

end Cert.ReferenceIdeal.Lookup

end
-- ==== Proof.RefValue.lean ====
/-
  The reference computes the token table plus the positional table.

  Read at image `n`, row `r`, feature `e`: the last operation adds the positional table, broadcast over the images, to a
  concatenation along the rows of the class row (row 0) and the interleaved rows. Row `r ≥ 1` of the result is row
  `r − 1` of a `[128, 196, 2, 768]` array merged to `[128, 392, 768]`, that is entry `((r − 1) / 2, (r − 1) % 2)` of the
  pair stacked from the patch-number embeddings (rows 1–196 of the looked-up table, the same for every image) and the
  projections `x · W + bias`. The lookup is the identity on the table's rows, so the three cases are `tok`'s.
-/
import proofs.«173162_j13769665151180_1_alg».proof.Proof.Gen.ReferenceIdeal.Read
import proofs.«173162_j13769665151180_1_alg».proof.Proof.RefLookup
import proofs.«173162_j13769665151180_1_alg».proof.Proof.Tokens
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Cert.ReferenceIdeal.Lookup
open Idealize.ShloMosaic Idealize.ShloMosaic.ValueIdx Cert.PatchTokens

variable (x0 : (⟨S128x196x768, .f32⟩ : BufTy).Contents (Elt Ideal)) (x1 : (⟨S768x768, .f32⟩ : BufTy).Contents (Elt Ideal))
  (x2 : (⟨S768, .f32⟩ : BufTy).Contents (Elt Ideal)) (x3 : (⟨S197x768, .f32⟩ : BufTy).Contents (Elt Ideal))
  (x4 : (⟨S1x393x768, .f32⟩ : BufTy).Contents (Elt Ideal))

/-- The class row: row 0 of the looked-up table, for every image. -/
theorem cls_apply (n : Fin 128) (e : Fin 768) :
    val_main_v25 (F := Ideal) x3 (ix3 n (⟨0, Nat.one_pos⟩ : Fin 1) e) = x3 (ix2 ⟨0, by omega⟩ e) := by
  rw [val_main_v25_apply, val_main_v24_apply, val_main_v23_apply, val_main_v22_apply]
  have hi : idx_main_v22 (idx_main_v23 (idx_main_v24 (idx_main_v25 (ix3 n (⟨0, Nat.one_pos⟩ : Fin 1) e))))
      = ix2 (⟨0, by omega⟩ : Fin 197) e := funext fun a => Fin.ext (by
    match a with
    | ⟨0, _⟩ => rfl
    | ⟨1, _⟩ => exact Nat.mod_eq_of_lt e.isLt)
  rw [hi, rows_apply]

/-- The patch-number embedding of patch `i`: row `1 + i` of the looked-up table, for every image. -/
theorem patch_apply (n : Fin 128) (i : Fin 196) (e : Fin 768) :
    val_main_v18 (F := Ideal) x3 (ix4 n i (⟨0, Nat.one_pos⟩ : Fin 1) e) = x3 (ix2 ⟨1 + i.val, by have := i.isLt; omega⟩ e) := by
  rw [val_main_v18_apply, val_main_v17_apply, val_main_v16_apply]
  have hi : idx_main_v16 (idx_main_v17 (idx_main_v18 (ix4 n i (⟨0, Nat.one_pos⟩ : Fin 1) e)))
      = ix2 (⟨1 + i.val, by have := i.isLt; omega⟩ : Fin 197) e := funext fun a => Fin.ext (by
    match a with
    | ⟨0, _⟩ => rfl
    | ⟨1, _⟩ => rfl)
  rw [hi, rows_apply]

/-- The projection of patch `i` of image `n`: the sum over the 768 input features, plus the bias. -/
theorem proj_apply (n : Fin 128) (i : Fin 196) (e : Fin 768) :
    val_main_v19 (F := Ideal) x0 x1 x2 (ix4 n i (⟨0, Nat.one_pos⟩ : Fin 1) e)
      = (∑ k : Fin 768, x0 (ix3 n i k) * x1 (ix2 k e)) + x2 (ix1 e) := by
  rw [val_main_v19_apply, val_main_v3_apply, val_main_v0_apply, val_main_v2_apply, val_main_v1_apply]
  have hb : idx_main_v1 (idx_main_v2 (idx_main_v19 (ix4 n i (⟨0, Nat.one_pos⟩ : Fin 1) e))) = ix1 e := funext fun a => Fin.ext (by
    match a with
    | ⟨0, _⟩ => rfl)
  have hl : ∀ k : Fin 768, lidx_main_v0 (idx_main_v19 (ix4 n i (⟨0, Nat.one_pos⟩ : Fin 1) e)) k = ix3 n i k := fun k =>
    funext fun a => Fin.ext (by
      match a with
      | ⟨0, _⟩ => rfl
      | ⟨1, _⟩ => rfl
      | ⟨2, _⟩ => rfl)
  have hr : ∀ k : Fin 768, ridx_main_v0 (idx_main_v19 (ix4 n i (⟨0, Nat.one_pos⟩ : Fin 1) e)) k = ix2 k e := fun k =>
    funext fun a => Fin.ext (by
      match a with
      | ⟨0, _⟩ => rfl
      | ⟨1, _⟩ => rfl)
  rw [hb]
  show (∑ k : Fin 768, _) + _ = _
  exact congrArg (· + x2 (ix1 e)) (Finset.sum_congr rfl fun k _ => by rw [hl k, hr k])

/-- The rows before the positional term are the token table. -/
theorem rows_eq_tok (n : Fin 128) (r : Fin 393) (e : Fin 768) :
    val_main_v26 (F := Ideal) x0 x1 x2 x3 (ix3 n r e) = tok x0 x1 x2 x3 n r e := by
  have hr := r.isLt
  unfold val_main_v26
  by_cases h0 : r.val = 0
  · rw [tok_cls _ _ _ _ n r e h0]
    refine (concatenate_pair_apply_left (t := S128x393x768) (s₁ := S128x1x768) (s₂ := S128x392x768) (1 : Fin 3) _ _ _ (ix3 n r e) rfl (ix3 n (⟨0, Nat.one_pos⟩ : Fin 1) e) (fun b => by
      match b with
      | ⟨0, _⟩ => rfl
      | ⟨1, _⟩ => exact h0.symm
      | ⟨2, _⟩ => rfl)).trans ?_
    exact cls_apply x3 n e
  · refine (concatenate_pair_apply_right (t := S128x393x768) (s₁ := S128x1x768) (s₂ := S128x392x768) (1 : Fin 3) _ _ _ (ix3 n r e) rfl rfl
      (ix3 n (⟨r.val - 1, by omega⟩ : Fin 392) e) (fun b hb => by
        match b, hb with
        | ⟨0, _⟩, _ => rfl
        | ⟨1, _⟩, hb => exact absurd (Fin.ext rfl) hb
        | ⟨2, _⟩, _ => rfl)
      (by show (r.val - 1) + 1 = r.val; omega)).trans ?_
    rw [val_main_v21_apply]
    have hn := n.isLt
    have he := e.isLt
    have hi : idx_main_v21 (ix3 n (⟨r.val - 1, by omega⟩ : Fin 392) e)
        = ix4 n (⟨(r.val - 1) / 2, by omega⟩ : Fin 196) (⟨(r.val - 1) % 2, by omega⟩ : Fin 2) e := funext fun a => Fin.ext (by
      match a with
      | ⟨0, _⟩ => show ((n.val * 392 + (r.val - 1)) * 768 + e.val) / 301056 = n.val; omega
      | ⟨1, _⟩ => show ((n.val * 392 + (r.val - 1)) * 768 + e.val) / 1536 % 196 = (r.val - 1) / 2; omega
      | ⟨2, _⟩ => show ((n.val * 392 + (r.val - 1)) * 768 + e.val) / 768 % 2 = (r.val - 1) % 2; omega
      | ⟨3, _⟩ => show ((n.val * 392 + (r.val - 1)) * 768 + e.val) % 768 = e.val; omega)
    rw [hi]
    unfold val_main_v20
    by_cases h1 : (r.val - 1) % 2 = 0
    · rw [tok_patch _ _ _ _ n r e h0 h1]
      refine (concatenate_pair_apply_left (t := S128x196x2x768) (s₁ := S128x196x1x768) (s₂ := S128x196x1x768) (2 : Fin 4) _ _ _ _ rfl
        (ix4 n (⟨(r.val - 1) / 2, by omega⟩ : Fin 196) (⟨0, Nat.one_pos⟩ : Fin 1) e) (fun b => by
          match b with
          | ⟨0, _⟩ => rfl
          | ⟨1, _⟩ => rfl
          | ⟨2, _⟩ => exact h1.symm
          | ⟨3, _⟩ => rfl)).trans ?_
      exact patch_apply x3 n _ e
    · rw [tok_proj _ _ _ _ n r e h0 h1]
      refine (concatenate_pair_apply_right (t := S128x196x2x768) (s₁ := S128x196x1x768) (s₂ := S128x196x1x768) (2 : Fin 4) _ _ _ _ rfl rfl
        (ix4 n (⟨(r.val - 1) / 2, by omega⟩ : Fin 196) (⟨0, Nat.one_pos⟩ : Fin 1) e) (fun b hb => by
          match b, hb with
          | ⟨0, _⟩, _ => rfl
          | ⟨1, _⟩, _ => rfl
          | ⟨2, _⟩, hb => exact absurd (Fin.ext rfl) hb
          | ⟨3, _⟩, _ => rfl)
        (by show 0 + 1 = (r.val - 1) % 2; omega)).trans ?_
      exact proj_apply x0 x1 x2 n _ e

/-- THE REFERENCE'S RESULT is `G` of its arguments. -/
theorem result_eq : val_main_v28 (F := Ideal) x0 x1 x2 x3 x4 = G x0 x1 x2 x3 x4 := by
  funext i
  obtain ⟨n, r, e, rfl⟩ : ∃ (n : Fin 128) (r : Fin 393) (e : Fin 768), i = ix3 n r e := ⟨i 0, i 1, i 2, eq_ix3 i⟩
  rw [G_apply, val_main_v28_apply, val_main_v27_apply, rows_eq_tok]
  have hp : idx_main_v27 (ix3 n r e) = ix3 (⟨0, Nat.one_pos⟩ : Fin 1) r e := funext fun a => Fin.ext (by
    match a with
    | ⟨0, _⟩ => rfl
    | ⟨1, _⟩ => rfl
    | ⟨2, _⟩ => rfl)
  rw [hp]
  rfl

end Cert.ReferenceIdeal.RefValue

end
-- ==== Proof.lean ====
/-
  A patch embedding — project each of 196 patches by a `[768, 768]` matrix and add a bias, interleave the projections
  with the patch-number embeddings, put the class embedding in front and add a positional table — computed by a
  kernel over 32 tiles of four images and by a plain array program over the whole batch of 128.

  Over the extended reals both results are the one function `G` of the five argument arrays (Proof/Tokens.lean):
  entry `(n, r, e)` is `emb[0, e]`, `emb[1 + i, e]` or `∑ₖ x[n, i, k] · W[k, e] + bias[e]` according as `r = 0`, `r = 1 + 2 i`
  or `r = 2 + 2 i`, plus `pos[0, r, e]`. On the kernel's side the product is taken tile by tile over bf16-narrowed
  operands, which changes no extended real, and each tile's block is read at an index through the body's casts,
  broadcasts and concatenations (Proof/TileLayout.lean, Proof/TileValue.lean); the 32 blocks tile the result
  (Proof/BatchTiles.lean). On the reference's side the embedding lookup by the ids `0 … 196` is the identity on the
  table's rows (Proof/RefLookup.lean) and the same three cases come out of its two concatenations and its reshape
  (Proof/RefValue.lean). The two sums run over the same 768 input features in the same order, and no law of the
  extended reals beyond that is used, so finiteness of the inputs is not needed. The kernel's idealization rewrote
  no operation, so it is the kernel's own text read at the extended reals.
-/
import proofs.«173162_j13769665151180_1_alg».proof.Defs
import proofs.«173162_j13769665151180_1_alg».proof.Proof.Gen.Kernel
import proofs.«173162_j13769665151180_1_alg».proof.Proof.Gen.Kernel.Skeleton
import proofs.«173162_j13769665151180_1_alg».proof.Proof.Gen.Kernel.Launch
import proofs.«173162_j13769665151180_1_alg».proof.Proof.Gen.Kernel.Points
import proofs.«173162_j13769665151180_1_alg».proof.Proof.Gen.Kernel.Frame
import proofs.«173162_j13769665151180_1_alg».proof.Proof.Gen.KernelIdeal
import proofs.«173162_j13769665151180_1_alg».proof.Proof.Gen.KernelIdeal.Skeleton
import proofs.«173162_j13769665151180_1_alg».proof.Proof.Gen.KernelIdeal.Launch
import proofs.«173162_j13769665151180_1_alg».proof.Proof.Gen.KernelIdeal.Points
import proofs.«173162_j13769665151180_1_alg».proof.Proof.Gen.KernelIdeal.Frame
import proofs.«173162_j13769665151180_1_alg».proof.Proof.Gen.ReferenceIdeal
import proofs.«173162_j13769665151180_1_alg».proof.Proof.Gen.Pre_finite_inputs
import proofs.«173162_j13769665151180_1_alg».proof.Proof.Gen.KernelIdeal.Value
import proofs.«173162_j13769665151180_1_alg».proof.Proof.Gen.ReferenceIdeal.Run
import proofs.«173162_j13769665151180_1_alg».proof.Proof.Gen.ReferenceIdeal.Read
import proofs.«173162_j13769665151180_1_alg».proof.Proof.BatchTiles
import proofs.«173162_j13769665151180_1_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at `G` of the argument arrays, on which the two memories agree. -/
theorem algebraic : Cert.algebraic_KernelIdeal_ReferenceIdeal := by
  intro m ρ m' ρ' _ hagree
  refine ⟨_, Cert.KernelIdeal.Batch.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
